-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S4x1 : Shape := ⟨2, ![4, 1]⟩
abbrev S1 : Shape := ⟨1, ![1]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x4 : S_.BroadcastsInDim S8x4 (![] : Fin 0 → Fin S8x4.rank)
  reducesTo_S8x4_S_d0_1 : S8x4.ReducesTo [0, 1] S_
  bcast_S_S4 : S_.BroadcastsInDim S4 (![] : Fin 0 → Fin S4.rank)
  reducesTo_S4_S_d0 : S4.ReducesTo [0] S_
  bcast_S_S4x1 : S_.BroadcastsInDim S4x1 (![] : Fin 0 → Fin S4x1.rank)
  reducesTo_S4x1_S_d0_1 : S4x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg11 : FVec F S8x4 .f32) (main_arg12 : FVec F S4 .f32) (main_arg13 : FVec F S4x1 .f32) (main_arg14 : FVec F S1 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S8x4 .f32 := Host.absf main_arg11
  let main_cst_20 : FVec F S_ .f32 := constant S_ .f32 0x7F800000#32
  let main_v55 : FVec F S8x4 .f32 := broadcastInDim S8x4 ![] bcast_S_S8x4 main_cst_20
  let main_v56 : IVec S8x4 1 := cmpf .olt main_v54 main_v55
  let main_c_21 : IVec S_ 1 := constantI S_ 1 1#1
  let main_v57 : IVec S_ 1 := (fun x v => Host.reduce IntOp.andi x v reducesTo_S8x4_S_d0_1 h_S_) main_v56 main_c_21
  let main_v58 : IVec S_ 1 := andi main_v53 main_v57
  let main_v59 : FVec F S4 .f32 := Host.absf main_arg12
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  let main_v64 : FVec F S4x1 .f32 := Host.absf main_arg13
  let main_cst_24 : FVec F S_ .f32 := constant S_ .f32 0x7F800000#32
  let main_v65 : FVec F S4x1 .f32 := broadcastInDim S4x1 ![] bcast_S_S4x1 main_cst_24
  let main_v66 : IVec S4x1 1 := cmpf .olt main_v64 main_v65
  let main_c_25 : IVec S_ 1 := constantI S_ 1 1#1
  let main_v67 : IVec S_ 1 := (fun x v => Host.reduce IntOp.andi x v reducesTo_S4x1_S_d0_1 h_S_) main_v66 main_c_25
  fn_part4 (F := F) main_arg14 main_v63 main_v67

def fn_part2 {F : FTy → Type} [FloatOps F] (main_arg7 : FVec F S32x16 .f32) (main_arg8 : FVec F S16 .f32) (main_arg9 : FVec F S16x8 .f32) (main_arg10 : FVec F S8 .f32) (main_arg11 : FVec F S8x4 .f32) (main_arg12 : FVec F S4 .f32) (main_arg13 : FVec F S4x1 .f32) (main_arg14 : FVec F S1 .f32) (main_v33 : IVec S_ 1) : IVec S_ 1 :=
  let main_v34 : FVec F S32x16 .f32 := Host.absf main_arg7
  let main_cst_12 : FVec F S_ .f32 := constant S_ .f32 0x7F800000#32
  let main_v35 : FVec F S32x16 .f32 := broadcastInDim S32x16 ![] bcast_S_S32x16 main_cst_12
  let main_v36 : IVec S32x16 1 := cmpf .olt main_v34 main_v35
  let main_c_13 : IVec S_ 1 := constantI S_ 1 1#1
  let main_v37 : IVec S_ 1 := (fun x v => Host.reduce IntOp.andi x v reducesTo_S32x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x8 .f32 := Host.absf main_arg9
  let main_cst_16 : FVec F S_ .f32 := constant S_ .f32 0x7F800000#32
  let main_v45 : FVec F S16x8 .f32 := broadcastInDim S16x8 ![] bcast_S_S16x8 main_cst_16
  let main_v46 : IVec S16x8 1 := cmpf .olt main_v44 main_v45
  let main_c_17 : IVec S_ 1 := constantI S_ 1 1#1
  let main_v47 : IVec S_ 1 := (fun x v => Host.reduce IntOp.andi x v reducesTo_S16x8_S_d0_1 h_S_) main_v46 main_c_17
  let main_v48 : IVec S_ 1 := andi main_v43 main_v47
  let main_v49 : FVec F S8 .f32 := Host.absf main_arg10
  let main_cst_18 : FVec F S_ .f32 := constant S_ .f32 0x7F800000#32
  let main_v50 : FVec F S8 .f32 := broadcastInDim S8 ![] bcast_S_S8 main_cst_18
  fn_part3 (F := F) main_arg11 main_arg12 main_arg13 main_arg14 main_v48 main_v49 main_v50

def fn_part1 {F : FTy → Type} [FloatOps F] (main_arg4 : FVec F S64 .f32) (main_arg5 : FVec F S64x32 .f32) (main_arg6 : FVec F S32 .f32) (main_arg7 : FVec F S32x16 .f32) (main_arg8 : FVec F S16 .f32) (main_arg9 : FVec F S16x8 .f32) (main_arg10 : FVec F S8 .f32) (main_arg11 : FVec F S8x4 .f32) (main_arg12 : FVec F S4 .f32) (main_arg13 : FVec F S4x1 .f32) (main_arg14 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg5
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S262144x256 .f32) (main_arg1 : FVec F S256x128 .f32) (main_arg2 : FVec F S128 .f32) (main_arg3 : FVec F S128x64 .f32) (main_arg4 : FVec F S64 .f32) (main_arg5 : FVec F S64x32 .f32) (main_arg6 : FVec F S32 .f32) (main_arg7 : FVec F S32x16 .f32) (main_arg8 : FVec F S16 .f32) (main_arg9 : FVec F S16x8 .f32) (main_arg10 : FVec F S8 .f32) (main_arg11 : FVec F S8x4 .f32) (main_arg12 : FVec F S4 .f32) (main_arg13 : FVec F S4x1 .f32) (main_arg14 : FVec F S1 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S262144x256 : Shape := ⟨2, ![262144, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S4x1 : Shape := ⟨2, ![4, 1]⟩
abbrev S1 : Shape := ⟨1, ![1]⟩
abbrev S262144 : Shape := ⟨1, ![262144]⟩
abbrev S8192x256 : Shape := ⟨2, ![8192, 256]⟩
abbrev S8192 : Shape := ⟨1, ![8192]⟩
abbrev S8192x128 : Shape := ⟨2, ![8192, 128]⟩
abbrev S1x128 : Shape := ⟨2, ![1, 128]⟩
abbrev S8192x64 : Shape := ⟨2, ![8192, 64]⟩
abbrev S1x64 : Shape := ⟨2, ![1, 64]⟩
abbrev S8192x32 : Shape := ⟨2, ![8192, 32]⟩
abbrev S1x32 : Shape := ⟨2, ![1, 32]⟩
abbrev S8192x16 : Shape := ⟨2, ![8192, 16]⟩
abbrev S1x16 : Shape := ⟨2, ![1, 16]⟩
abbrev S8192x8 : Shape := ⟨2, ![8192, 8]⟩
abbrev S1x8 : Shape := ⟨2, ![1, 8]⟩
abbrev S8192x4 : Shape := ⟨2, ![8192, 4]⟩
abbrev S1x4 : Shape := ⟨2, ![1, 4]⟩
abbrev S8192x1 : Shape := ⟨2, ![8192, 1]⟩
abbrev S1x1 : Shape := ⟨2, ![1, 1]⟩

abbrev nBuf : Space → Nat
  | .hbm => 16
  | .vmem => 18
  | .smem => 0
  | _ => 0

abbrev bufTy : (tb : Table) → Fin (tcTables nBuf tb) → BufTy
  | .hbm, ⟨0, _⟩ => ⟨S262144x256, .f32⟩
  | .hbm, ⟨1, _⟩ => ⟨S256x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x16, .f32⟩
  | .hbm, ⟨8, _⟩ => ⟨S16, .f32⟩
  | .hbm, ⟨9, _⟩ => ⟨S16x8, .f32⟩
  | .hbm, ⟨10, _⟩ => ⟨S8, .f32⟩
  | .hbm, ⟨11, _⟩ => ⟨S8x4, .f32⟩
  | .hbm, ⟨12, _⟩ => ⟨S4, .f32⟩
  | .hbm, ⟨13, _⟩ => ⟨S4x1, .f32⟩
  | .hbm, ⟨14, _⟩ => ⟨S1, .f32⟩
  | .hbm, ⟨15, _⟩ => ⟨S262144, .f32⟩
  | .local _ .vmem, ⟨0, _⟩ => ⟨S8192x256, .f32⟩
  | .local _ .vmem, ⟨1, _⟩ => ⟨S8192x256, .f32⟩
  | .local _ .vmem, ⟨2, _⟩ => ⟨S256x128, .f32⟩
  | .local _ .vmem, ⟨3, _⟩ => ⟨S128, .f32⟩
  | .local _ .vmem, ⟨4, _⟩ => ⟨S128x64, .f32⟩
  | .local _ .vmem, ⟨5, _⟩ => ⟨S64, .f32⟩
  | .local _ .vmem, ⟨6, _⟩ => ⟨S64x32, .f32⟩
  | .local _ .vmem, ⟨7, _⟩ => ⟨S32, .f32⟩
  | .local _ .vmem, ⟨8, _⟩ => ⟨S32x16, .f32⟩
  | .local _ .vmem, ⟨9, _⟩ => ⟨S16, .f32⟩
  | .local _ .vmem, ⟨10, _⟩ => ⟨S16x8, .f32⟩
  | .local _ .vmem, ⟨11, _⟩ => ⟨S8, .f32⟩
  | .local _ .vmem, ⟨12, _⟩ => ⟨S8x4, .f32⟩
  | .local _ .vmem, ⟨13, _⟩ => ⟨S4, .f32⟩
  | .local _ .vmem, ⟨14, _⟩ => ⟨S4x1, .f32⟩
  | .local _ .vmem, ⟨15, _⟩ => ⟨S1, .f32⟩
  | .local _ .vmem, ⟨16, _⟩ => ⟨S8192, .f32⟩
  | .local _ .vmem, ⟨17, _⟩ => ⟨S8192, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S8192 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  inb_S8192x256_S8192x256_0_0 : ∀ a, (![0, 0] : Fin 2 → Nat) a + S8192x256.size a ≤ S8192x256.size a
  h_S8192x256 : 0 < S8192x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S8192x64 : S1x64.Broadcasts S8192x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S8192x32 : S1x32.Broadcasts S8192x32
  inb_S32x16_S32x16_0_0 : ∀ a, (![0, 0] : Fin 2 → Nat) a + S32x16.size a ≤ S32x16.size a
  h_S32x16 : 0 < S32x16.numel
  inb_S16_S16_0 : ∀ a, (![0] : Fin 1 → Nat) a + S16.size a ≤ S16.size a
  h_S16 : 0 < S16.numel
  shapeCasts_S16_S1x16 : S16.ShapeCasts S1x16
  broadcasts_S1x16_S8192x16 : S1x16.Broadcasts S8192x16
  inb_S16x8_S16x8_0_0 : ∀ a, (![0, 0] : Fin 2 → Nat) a + S16x8.size a ≤ S16x8.size a
  h_S16x8 : 0 < S16x8.numel
  inb_S8_S8_0 : ∀ a, (![0] : Fin 1 → Nat) a + S8.size a ≤ S8.size a
  h_S8 : 0 < S8.numel
  shapeCasts_S8_S1x8 : S8.ShapeCasts S1x8
  broadcasts_S1x8_S8192x8 : S1x8.Broadcasts S8192x8
  inb_S8x4_S8x4_0_0 : ∀ a, (![0, 0] : Fin 2 → Nat) a + S8x4.size a ≤ S8x4.size a
  h_S8x4 : 0 < S8x4.numel
  inb_S4_S4_0 : ∀ a, (![0] : Fin 1 → Nat) a + S4.size a ≤ S4.size a
  h_S4 : 0 < S4.numel
  shapeCasts_S4_S1x4 : S4.ShapeCasts S1x4
  broadcasts_S1x4_S8192x4 : S1x4.Broadcasts S8192x4
  inb_S4x1_S4x1_0_0 : ∀ a, (![0, 0] : Fin 2 → Nat) a + S4x1.size a ≤ S4x1.size a
  h_S4x1 : 0 < S4x1.numel
  inb_S1_S1_0 : ∀ a, (![0] : Fin 1 → Nat) a + S1.size a ≤ S1.size a
  h_S1 : 0 < S1.numel
  shapeCasts_S1_S1x1 : S1.ShapeCasts S1x1
  broadcasts_S1x1_S8192x1 : S1x1.Broadcasts S8192x1
  shapeCasts_S8192x1_S8192 : S8192x1.ShapeCasts S8192
  inb_S8192_S8192_0 : ∀ a, (![0] : Fin 1 → Nat) a + S8192.size a ≤ S8192.size a
  h_S8192 : 0 < S8192.numel
  dot_S8192x256_S256x128_S8192x128_1_0_0_1_n_n_wf : DotDims.WF S8192x256 S256x128 S8192x128 [1] [0] [0] [1] [] []
  dot_S8192x128_S128x64_S8192x64_1_0_0_1_n_n_wf : DotDims.WF S8192x128 S128x64 S8192x64 [1] [0] [0] [1] [] []
  dot_S8192x64_S64x32_S8192x32_1_0_0_1_n_n_wf : DotDims.WF S8192x64 S64x32 S8192x32 [1] [0] [0] [1] [] []
  dot_S8192x32_S32x16_S8192x16_1_0_0_1_n_n_wf : DotDims.WF S8192x32 S32x16 S8192x16 [1] [0] [0] [1] [] []
  dot_S8192x16_S16x8_S8192x8_1_0_0_1_n_n_wf : DotDims.WF S8192x16 S16x8 S8192x8 [1] [0] [0] [1] [] []
  dot_S8192x8_S8x4_S8192x4_1_0_0_1_n_n_wf : DotDims.WF S8192x8 S8x4 S8192x4 [1] [0] [0] [1] [] []
  dot_S8192x4_S4x1_S8192x1_1_0_0_1_n_n_wf : DotDims.WF S8192x4 S4x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S262144x256.size a
  hwx0_0 : ∀ i : grid0.Coords, EltTy.bits .f32 = 32 ∨ (Rect.block (s := S262144x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x16.size a ≤ S32x16.size a
  hwx0_7 : ∀ i : grid0.Coords, EltTy.bits .f32 = 32 ∨ (Rect.block (s := S32x16) S32x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16.size a ≤ S16.size a
  hwx0_8 : ∀ i : grid0.Coords, EltTy.bits .f32 = 32 ∨ (Rect.block (s := S16) S16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x8.size a ≤ S16x8.size a
  hwx0_9 : ∀ i : grid0.Coords, EltTy.bits .f32 = 32 ∨ (Rect.block (s := S16x8) S16x8.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8.size a ≤ S8.size a
  hwx0_10 : ∀ i : grid0.Coords, EltTy.bits .f32 = 32 ∨ (Rect.block (s := S8) S8.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S8x4.size a ≤ S8x4.size a
  hwx0_11 : ∀ i : grid0.Coords, EltTy.bits .f32 = 32 ∨ (Rect.block (s := S8x4) S8x4.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S4.size a ≤ S4.size a
  hwx0_12 : ∀ i : grid0.Coords, EltTy.bits .f32 = 32 ∨ (Rect.block (s := S4) S4.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S4x1.size a ≤ S4x1.size a
  hwx0_13 : ∀ i : grid0.Coords, EltTy.bits .f32 = 32 ∨ (Rect.block (s := S4x1) S4x1.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1.size a ≤ S1.size a
  hwx0_14 : ∀ i : grid0.Coords, EltTy.bits .f32 = 32 ∨ (Rect.block (s := S1) S1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S8192.size a ≤ S262144.size a
  hwx0_15 : ∀ i : grid0.Coords, EltTy.bits .f32 = 32 ∨ (Rect.block (s := S262144) S8192.size (cc0_transform_15 i) (hinb0_15 i)).WholeWords (EltTy.packing .f32)

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def dot_S8192x32_S32x16_S8192x16_1_0_0_1_n_n : DotDims S8192x32 S32x16 S8192x16 where
  lhsContracting := [1]
  rhsContracting := [0]
  lhsNonContracting := [0]
  rhsNonContracting := [1]
  lhsBatch := []
  rhsBatch := []
  wf := dot_S8192x32_S32x16_S8192x16_1_0_0_1_n_n_wf
def dot_S8192x16_S16x8_S8192x8_1_0_0_1_n_n : DotDims S8192x16 S16x8 S8192x8 where
  lhsContracting := [1]
  rhsContracting := [0]
  lhsNonContracting := [0]
  rhsNonContracting := [1]
  lhsBatch := []
  rhsBatch := []
  wf := dot_S8192x16_S16x8_S8192x8_1_0_0_1_n_n_wf
def dot_S8192x8_S8x4_S8192x4_1_0_0_1_n_n : DotDims S8192x8 S8x4 S8192x4 where
  lhsContracting := [1]
  rhsContracting := [0]
  lhsNonContracting := [0]
  rhsNonContracting := [1]
  lhsBatch := []
  rhsBatch := []
  wf := dot_S8192x8_S8x4_S8192x4_1_0_0_1_n_n_wf
def dot_S8192x4_S4x1_S8192x1_1_0_0_1_n_n : DotDims S8192x4 S4x1 S8192x1 where
  lhsContracting := [1]
  rhsContracting := [0]
  lhsNonContracting := [0]
  rhsNonContracting := [1]
  lhsBatch := []
  rhsBatch := []
  wf := dot_S8192x4_S4x1_S8192x1_1_0_0_1_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S16x8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S8.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S8x4.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S4.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S4x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v0) S8192.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S262144x256 : Shape := ⟨2, ![262144, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S4x1 : Shape := ⟨2, ![4, 1]⟩
abbrev S1 : Shape := ⟨1, ![1]⟩
abbrev S262144x128 : Shape := ⟨2, ![262144, 128]⟩
abbrev S1x128 : Shape := ⟨2, ![1, 128]⟩
abbrev S_ : Shape := ⟨0, ![]⟩
abbrev S262144x64 : Shape := ⟨2, ![262144, 64]⟩
abbrev S1x64 : Shape := ⟨2, ![1, 64]⟩
abbrev S262144x32 : Shape := ⟨2, ![262144, 32]⟩
abbrev S1x32 : Shape := ⟨2, ![1, 32]⟩
abbrev S262144x16 : Shape := ⟨2, ![262144, 16]⟩
abbrev S1x16 : Shape := ⟨2, ![1, 16]⟩
abbrev S262144x8 : Shape := ⟨2, ![262144, 8]⟩
abbrev S1x8 : Shape := ⟨2, ![1, 8]⟩
abbrev S262144x4 : Shape := ⟨2, ![262144, 4]⟩
abbrev S1x4 : Shape := ⟨2, ![1, 4]⟩
abbrev S262144x1 : Shape := ⟨2, ![262144, 1]⟩
abbrev S1x1 : Shape := ⟨2, ![1, 1]⟩
abbrev S262144 : Shape := ⟨1, ![262144]⟩

abbrev nBuf : Space → Nat
  | .hbm => 70
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S256x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x16, .f32⟩
  | .hbm, ⟨8, _⟩ => ⟨S16, .f32⟩
  | .hbm, ⟨9, _⟩ => ⟨S16x8, .f32⟩
  | .hbm, ⟨10, _⟩ => ⟨S8, .f32⟩
  | .hbm, ⟨11, _⟩ => ⟨S8x4, .f32⟩
  | .hbm, ⟨12, _⟩ => ⟨S4, .f32⟩
  | .hbm, ⟨13, _⟩ => ⟨S4x1, .f32⟩
  | .hbm, ⟨14, _⟩ => ⟨S1, .f32⟩
  | .hbm, ⟨15, _⟩ => ⟨S262144x128, .f32⟩
  | .hbm, ⟨16, _⟩ => ⟨S1x128, .f32⟩
  | .hbm, ⟨17, _⟩ => ⟨S262144x128, .f32⟩
  | .hbm, ⟨18, _⟩ => ⟨S262144x128, .f32⟩
  | .hbm, ⟨19, _⟩ => ⟨S_, .f32⟩
  | .hbm, ⟨20, _⟩ => ⟨S262144x128, .f32⟩
  | .hbm, ⟨21, _⟩ => ⟨S262144x128, .f32⟩
  | .hbm, ⟨22, _⟩ => ⟨S262144x64, .f32⟩
  | .hbm, ⟨23, _⟩ => ⟨S1x64, .f32⟩
  | .hbm, ⟨24, _⟩ => ⟨S262144x64, .f32⟩
  | .hbm, ⟨25, _⟩ => ⟨S262144x64, .f32⟩
  | .hbm, ⟨26, _⟩ => ⟨S_, .f32⟩
  | .hbm, ⟨27, _⟩ => ⟨S262144x64, .f32⟩
  | .hbm, ⟨28, _⟩ => ⟨S262144x64, .f32⟩
  | .hbm, ⟨29, _⟩ => ⟨S262144x32, .f32⟩
  | .hbm, ⟨30, _⟩ => ⟨S1x32, .f32⟩
  | .hbm, ⟨31, _⟩ => ⟨S262144x32, .f32⟩
  | .hbm, ⟨32, _⟩ => ⟨S262144x32, .f32⟩
  | .hbm, ⟨33, _⟩ => ⟨S_, .f32⟩
  | .hbm, ⟨34, _⟩ => ⟨S262144x32, .f32⟩
  | .hbm, ⟨35, _⟩ => ⟨S262144x32, .f32⟩
  | .hbm, ⟨36, _⟩ => ⟨S262144x16, .f32⟩
  | .hbm, ⟨37, _⟩ => ⟨S1x16, .f32⟩
  | .hbm, ⟨38, _⟩ => ⟨S262144x16, .f32⟩
  | .hbm, ⟨39, _⟩ => ⟨S262144x16, .f32⟩
  | .hbm, ⟨40, _⟩ => ⟨S_, .f32⟩
  | .hbm, ⟨41, _⟩ => ⟨S262144x16, .f32⟩
  | .hbm, ⟨42, _⟩ => ⟨S262144x16, .f32⟩
  | .hbm, ⟨43, _⟩ => ⟨S262144x8, .f32⟩
  | .hbm, ⟨44, _⟩ => ⟨S1x8, .f32⟩
  | .hbm, ⟨45, _⟩ => ⟨S262144x8, .f32⟩
  | .hbm, ⟨46, _⟩ => ⟨S262144x8, .f32⟩
  | .hbm, ⟨47, _⟩ => ⟨S_, .f32⟩
  | .hbm, ⟨48, _⟩ => ⟨S262144x8, .f32⟩
  | .hbm, ⟨49, _⟩ => ⟨S262144x8, .f32⟩
  | .hbm, ⟨50, _⟩ => ⟨S262144x4, .f32⟩
  | .hbm, ⟨51, _⟩ => ⟨S1x4, .f32⟩
  | .hbm, ⟨52, _⟩ => ⟨S262144x4, .f32⟩
  | .hbm, ⟨53, _⟩ => ⟨S262144x4, .f32⟩
  | .hbm, ⟨54, _⟩ => ⟨S_, .f32⟩
  | .hbm, ⟨55, _⟩ => ⟨S262144x4, .f32⟩
  | .hbm, ⟨56, _⟩ => ⟨S262144x4, .f32⟩
  | .hbm, ⟨57, _⟩ => ⟨S262144x1, .f32⟩
  | .hbm, ⟨58, _⟩ => ⟨S1x1, .f32⟩
  | .hbm, ⟨59, _⟩ => ⟨S262144x1, .f32⟩
  | .hbm, ⟨60, _⟩ => ⟨S262144x1, .f32⟩
  | .hbm, ⟨61, _⟩ => ⟨S262144x1, .f32⟩
  | .hbm, ⟨62, _⟩ => ⟨S262144x1, .f32⟩
  | .hbm, ⟨63, _⟩ => ⟨S_, .f32⟩
  | .hbm, ⟨64, _⟩ => ⟨S262144x1, .f32⟩
  | .hbm, ⟨65, _⟩ => ⟨S262144x1, .f32⟩
  | .hbm, ⟨66, _⟩ => ⟨S_, .f32⟩
  | .hbm, ⟨67, _⟩ => ⟨S262144x1, .f32⟩
  | .hbm, ⟨68, _⟩ => ⟨S262144x1, .f32⟩
  | .hbm, ⟨69, _⟩ => ⟨S262144, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call1_cst : Ref sig .tc := ⟨.hbm, 26, rfl⟩
abbrev main_call1_v0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call2_cst : Ref sig .tc := ⟨.hbm, 33, rfl⟩
abbrev main_call2_v0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call3_cst : Ref sig .tc := ⟨.hbm, 40, rfl⟩
abbrev main_call3_v0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call4_cst : Ref sig .tc := ⟨.hbm, 47, rfl⟩
abbrev main_call4_v0 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_call5_cst : Ref sig .tc := ⟨.hbm, 54, rfl⟩
abbrev main_call5_v0 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst : Ref sig .tc := ⟨.hbm, 63, rfl⟩
abbrev main_v36 : Ref sig .tc := ⟨.hbm, 64, rfl⟩
abbrev main_v37 : Ref sig .tc := ⟨.hbm, 65, rfl⟩
abbrev main_cst_0 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  bcast_S32_S1x32_1 : S32.BroadcastsInDim S1x32 (![1] : Fin 1 → Fin S1x32.rank)
  bcast_S1x32_S262144x32_0_1 : S1x32.BroadcastsInDim S262144x32 (![0, 1] : Fin 2 → Fin S262144x32.rank)
  bcast_S_S262144x32 : S_.BroadcastsInDim S262144x32 (![] : Fin 0 → Fin S262144x32.rank)
  bcast_S16_S1x16_1 : S16.BroadcastsInDim S1x16 (![1] : Fin 1 → Fin S1x16.rank)
  bcast_S1x16_S262144x16_0_1 : S1x16.BroadcastsInDim S262144x16 (![0, 1] : Fin 2 → Fin S262144x16.rank)
  bcast_S_S262144x16 : S_.BroadcastsInDim S262144x16 (![] : Fin 0 → Fin S262144x16.rank)
  bcast_S8_S1x8_1 : S8.BroadcastsInDim S1x8 (![1] : Fin 1 → Fin S1x8.rank)
  bcast_S1x8_S262144x8_0_1 : S1x8.BroadcastsInDim S262144x8 (![0, 1] : Fin 2 → Fin S262144x8.rank)
  bcast_S_S262144x8 : S_.BroadcastsInDim S262144x8 (![] : Fin 0 → Fin S262144x8.rank)
  bcast_S4_S1x4_1 : S4.BroadcastsInDim S1x4 (![1] : Fin 1 → Fin S1x4.rank)
  bcast_S1x4_S262144x4_0_1 : S1x4.BroadcastsInDim S262144x4 (![0, 1] : Fin 2 → Fin S262144x4.rank)
  bcast_S_S262144x4 : S_.BroadcastsInDim S262144x4 (![] : Fin 0 → Fin S262144x4.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  bcast_S_S262144x1 : S_.BroadcastsInDim S262144x1 (![] : Fin 0 → Fin S262144x1.rank)
  shapeCasts_S262144x1_S262144 : S262144x1.ShapeCasts S262144
  dot_S262144x256_S256x128_S262144x128_1_0_0_1_n_n_wf : DotDims.WF S262144x256 S256x128 S262144x128 [1] [0] [0] [1] [] []
  dot_S262144x128_S128x64_S262144x64_1_0_0_1_n_n_wf : DotDims.WF S262144x128 S128x64 S262144x64 [1] [0] [0] [1] [] []
  dot_S262144x64_S64x32_S262144x32_1_0_0_1_n_n_wf : DotDims.WF S262144x64 S64x32 S262144x32 [1] [0] [0] [1] [] []
  dot_S262144x32_S32x16_S262144x16_1_0_0_1_n_n_wf : DotDims.WF S262144x32 S32x16 S262144x16 [1] [0] [0] [1] [] []
  dot_S262144x16_S16x8_S262144x8_1_0_0_1_n_n_wf : DotDims.WF S262144x16 S16x8 S262144x8 [1] [0] [0] [1] [] []
  dot_S262144x8_S8x4_S262144x4_1_0_0_1_n_n_wf : DotDims.WF S262144x8 S8x4 S262144x4 [1] [0] [0] [1] [] []
  dot_S262144x4_S4x1_S262144x1_1_0_0_1_n_n_wf : DotDims.WF S262144x4 S4x1 S262144x1 [1] [0] [0] [1] [] []

variable [Facts₀]

def dot_S262144x256_S256x128_S262144x128_1_0_0_1_n_n : DotDims S262144x256 S256x128 S262144x128 where
  lhsContracting := [1]
  rhsContracting := [0]
  lhsNonContracting := [0]
  rhsNonContracting := [1]
  lhsBatch := []
  rhsBatch := []
  wf := dot_S262144x256_S256x128_S262144x128_1_0_0_1_n_n_wf
def dot_S262144x128_S128x64_S262144x64_1_0_0_1_n_n : DotDims S262144x128 S128x64 S262144x64 where
  lhsContracting := [1]
  rhsContracting := [0]
  lhsNonContracting := [0]
  rhsNonContracting := [1]
  lhsBatch := []
  rhsBatch := []
  wf := dot_S262144x128_S128x64_S262144x64_1_0_0_1_n_n_wf
def dot_S262144x64_S64x32_S262144x32_1_0_0_1_n_n : DotDims S262144x64 S64x32 S262144x32 where
  lhsContracting := [1]
  rhsContracting := [0]
  lhsNonContracting := [0]
  rhsNonContracting := [1]
  lhsBatch := []
  rhsBatch := []
  wf := dot_S262144x64_S64x32_S262144x32_1_0_0_1_n_n_wf
def dot_S262144x32_S32x16_S262144x16_1_0_0_1_n_n : DotDims S262144x32 S32x16 S262144x16 where
  lhsContracting := [1]
  rhsContracting := [0]
  lhsNonContracting := [0]
  rhsNonContracting := [1]
  lhsBatch := []
  rhsBatch := []
  wf := dot_S262144x32_S32x16_S262144x16_1_0_0_1_n_n_wf
def dot_S262144x16_S16x8_S262144x8_1_0_0_1_n_n : DotDims S262144x16 S16x8 S262144x8 where
  lhsContracting := [1]
  rhsContracting := [0]
  lhsNonContracting := [0]
  rhsNonContracting := [1]
  lhsBatch := []
  rhsBatch := []
  wf := dot_S262144x16_S16x8_S262144x8_1_0_0_1_n_n_wf
def dot_S262144x8_S8x4_S262144x4_1_0_0_1_n_n : DotDims S262144x8 S8x4 S262144x4 where
  lhsContracting := [1]
  rhsContracting := [0]
  lhsNonContracting := [0]
  rhsNonContracting := [1]
  lhsBatch := []
  rhsBatch := []
  wf := dot_S262144x8_S8x4_S262144x4_1_0_0_1_n_n_wf
def dot_S262144x4_S4x1_S262144x1_1_0_0_1_n_n : DotDims S262144x4 S4x1 S262144x1 where
  lhsContracting := [1]
  rhsContracting := [0]
  lhsNonContracting := [0]
  rhsNonContracting := [1]
  lhsBatch := []
  rhsBatch := []
  wf := dot_S262144x4_S4x1_S262144x1_1_0_0_1_n_n_wf

class Facts : Prop extends Facts₀ where

variable [Facts]
-- ==== Proof.LibRowBlockDot.lean ====
/-
  A block of rows of a matrix product, at the extended reals.

  Row i of X·W depends on row i of X alone. So the product of a block of rows of X (any choice of rows, given by a map
  `row` from the block's row numbers to the matrix's) with W is the same block of rows of X·W: entry (a, b) of the
  one and entry (row a, b) of the other are the same sum over the contracted coordinate of the same products. Stated
  for a kernel's product accumulated into the zero block against the host's product of the whole matrices, generic in
  the four extents, the operand formats and the precision keys. Nothing of real arithmetic is used beyond 0 + x = x,
  so it holds at the infinities too.
-/
import Idealize.ShloMosaic.Lib.StackMember
import Idealize.ShloMosaic.Lib.KernelVsHost

noncomputable section

namespace Cert.LibRowBlockDot

open Idealize.ShloMosaic Idealize.ShloMosaic.ValueIdx

/-- Entry (a, b) of a kernel's plain product `A·B` into the zero accumulator, where `A` is the rows `row a` of a
    matrix `X` and `B` is `W` entry by entry, is entry (`row a`, b) of the host's plain product `X·W`. -/
theorem matmul_rowBlock_apply {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b)) (a : Fin m) (b : Fin N) :
    matmul (DotDims.plain m K N) prec A B (constant (F := Ideal) ⟨2, ![m, N]⟩ .f32 0x00000000#32) (ix2 a b)
      = Host.dotGeneral (DotDims.plain M K N) prec' X W (ix2 (row a) b) := by
  rw [matmul_zero_eq_dotGeneral, StackMember.dotGeneral_plain_apply, StackMember.dotGeneral_plain_apply]
  exact Finset.sum_congr rfl fun c _ => by rw [hA, hB]

/-- The same with the two entries given by their coordinates: `j` in the block and `i` in the whole product, `i`'s
    row being the row the block's row `j 0` stands for and the columns equal. -/
theorem matmul_rowBlock_apply_idx {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b))
    (j : (⟨2, ![m, N]⟩ : Shape).Idx) (i : (⟨2, ![M, N]⟩ : Shape).Idx)
    (h0 : (i 0).val = (row (j 0)).val) (h1 : (i 1).val = (j 1).val) :
    matmul (DotDims.plain m K N) prec A B (constant (F := Ideal) ⟨2, ![m, N]⟩ .f32 0x00000000#32) j
      = Host.dotGeneral (DotDims.plain M K N) prec' X W i := by
  have hj : j = ix2 (j 0) (j 1) := eq_ix2 j
  have hi : i = ix2 (row (j 0)) (j 1) := by
    rw [eq_ix2 i]
    exact congrArg₂ ix2 (Fin.ext h0) (Fin.ext h1)
  rw [hj, hi]
  exact matmul_rowBlock_apply prec prec' X W A B row hA hB (j 0) (j 1)

end Cert.LibRowBlockDot

end
-- ==== Proof.LibDenseRows.lean ====
/-
  One dense layer of a multilayer perceptron on a block of rows, at the extended reals.

  A dense layer sends an activation matrix X [M,K] to X·W + b (bias b [N] added to every row), then through a
  rectifier max(·, 0) or, at the end, a sigmoid. Each row of the result depends on the same row of X alone. So a
  tiled program that holds a block of rows A of X (row a of the block being row `row a` of X), and computes the
  layer on the block with its own spelling of the operations (operands narrowed to bf16, a product into a zero
  accumulator, the bias reshaped to one row and repeated down the block, the zero a splat scalar), gets the same
  block of rows of the host's layer (a plain product, the bias broadcast in two steps, the zero a broadcast
  constant). Stated entry by entry and generic in the four extents; each lemma takes the agreement of the block
  with the matrix as a hypothesis of the same form as its conclusion, so the layers chain. Only 0 + x = x and the
  definitions of the operations are used, so everything holds at the infinities too.
-/
import proofs.«142283_j73727408603248_2_alg».proof.Proof.LibRowBlockDot
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.LibDenseRows

open Idealize.ShloMosaic Idealize.ShloMosaic.ValueIdx

variable {M m K N : Nat}

/-- A bias vector [N] broadcast to one row [1,N] and then down M rows reads, at (r, q), the vector at q (whatever
    N is, one included). -/
theorem hostBias_apply (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (q : Fin N) :
    broadcastInDim ⟨2, ![M, N]⟩ ![0, 1] h2 (broadcastInDim ⟨2, ![1, N]⟩ ![1] h1 b) (ix2 r q) = b (ix1 q) := by
  refine (broadcastInDim_apply (![0, 1] : Fin 2 → Fin 2) h2 _ (ix2 r q) (ix2 (0 : Fin 1) q) fun ax => ?_).trans ?_
  · match ax with
    | ⟨0, _⟩ => rfl
    | ⟨1, _⟩ =>
      show q.val = if N = 1 then 0 else q.val
      split
      · have := q.isLt; omega
      · rfl
  · refine broadcastInDim_apply (![1] : Fin 1 → Fin 2) h1 b (ix2 (0 : Fin 1) q) (ix1 q) fun ax => ?_
    match ax with
    | ⟨0, _⟩ =>
      show q.val = if N = 1 then 0 else q.val
      split
      · have := q.isLt; omega
      · rfl

/-- A float constant broadcast from a scalar to any shape reads the constant's value everywhere. -/
theorem splat_apply {s : Shape} (w : BitVec FTy.f32.bits)
    (h : (⟨0, ![]⟩ : Shape).BroadcastsInDim s (![] : Fin 0 → Fin s.rank)) (i : s.Idx) :
    broadcastInDim s ![] h (constant (F := Ideal) ⟨0, ![]⟩ .f32 w) i = Ideal.ofBits .f32 w := by
  rw [broadcastInDim_apply (![] : Fin 0 → Fin s.rank) h _ i ix0 (fun a => a.elim0)]
  rfl

/-- X·W + b on a block of rows: the tiled program's product of the narrowed block and weights into the zero block,
    plus the bias as a repeated row, is the same block of rows of the host's X·W + b. -/
theorem dense_rows (row : Fin m → Fin M)
    (Dk : DotDims ⟨2, ![m, K]⟩ ⟨2, ![K, N]⟩ ⟨2, ![m, N]⟩) (hDk : Dk = DotDims.plain m K N)
    (Dh : DotDims ⟨2, ![M, K]⟩ ⟨2, ![K, N]⟩ ⟨2, ![M, N]⟩) (hDh : Dh = DotDims.plain M K N)
    (X : FVec Ideal ⟨2, ![M, K]⟩ .f32) (W : FVec Ideal ⟨2, ![K, N]⟩ .f32) (b : FVec Ideal ⟨1, ![N]⟩ .f32)
    (A : FVec Ideal ⟨2, ![m, K]⟩ .f32) (hA : ∀ a c, A (ix2 a c) = X (ix2 (row a) c))
    (ht : FTy.bf16.bits < FTy.f32.bits)
    (hc : (⟨1, ![N]⟩ : Shape).ShapeCasts ⟨2, ![1, N]⟩) (hbc : (⟨2, ![1, N]⟩ : Shape).Broadcasts ⟨2, ![m, N]⟩)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (a : Fin m) (q : Fin N) :
    addf (matmul Dk none (truncf .bf16 A ht) (truncf .bf16 W ht) (constant (F := Ideal) ⟨2, ![m, N]⟩ .f32 0x00000000#32))
        (broadcastTo ⟨2, ![m, N]⟩ (shapeCast ⟨2, ![1, N]⟩ b hc) hbc) (ix2 a q)
      = addf (Host.dotGeneral Dh none X W)
          (broadcastInDim ⟨2, ![M, N]⟩ ![0, 1] h2 (broadcastInDim ⟨2, ![1, N]⟩ ![1] h1 b)) (ix2 (row a) q) := by
  subst hDk hDh
  rw [addf_apply, addf_apply, hostBias_apply, broadcastTo_1b_ab_apply, shapeCast_a_1a_apply,
    LibRowBlockDot.matmul_rowBlock_apply none none X W (truncf .bf16 A ht) (truncf .bf16 W ht) row
      (fun a c => (truncf_apply A ht _).trans (hA a c)) (fun c b => truncf_apply W ht _) a q]

/-- The rectifier on a block of rows: the maximum with a splat zero is the same block of rows of the host's maximum
    with a broadcast zero constant. -/
theorem relu_rows (row : Fin m → Fin M) (X : FVec Ideal ⟨2, ![M, N]⟩ .f32) (A : FVec Ideal ⟨2, ![m, N]⟩ .f32)
    (hA : ∀ a q, A (ix2 a q) = X (ix2 (row a) q))
    (h0 : (⟨0, ![]⟩ : Shape).BroadcastsInDim ⟨2, ![M, N]⟩ (![] : Fin 0 → Fin 2)) (a : Fin m) (q : Fin N) :
    maximumf A (broadcast ⟨2, ![m, N]⟩ (Scalar.ofBits (F := Ideal) .f32 0x00000000#32)) (ix2 a q)
      = maximumf X (broadcastInDim ⟨2, ![M, N]⟩ ![] h0 (constant (F := Ideal) ⟨0, ![]⟩ .f32 0x00000000#32)) (ix2 (row a) q) := by
  rw [maximumf_apply, maximumf_apply, hA, broadcast_apply, splat_apply]
  rfl

/-- The float word of one denotes the real one. -/
theorem ofBits_one : Ideal.ofBits .f32 0x3F800000#32 = 1 := by
  simp [Ideal.ofBits, Ideal.ieee, -EReal.coe_mul]; norm_num

/-- A column [m,1] flattened to a vector [m] reads, at p, the column at (p, 0). -/
theorem flattenCol_apply {α : Type} (x : (⟨2, ![m, 1]⟩ : Shape).Idx → α) (h : (⟨2, ![m, 1]⟩ : Shape).ShapeCasts ⟨1, ![m]⟩)
    (p : Fin m) : shapeCast ⟨1, ![m]⟩ x h (ix1 p) = x (ix2 p (0 : Fin 1)) :=
  shapeCast_apply x h _ _ (by
    rw [Shape.rowMajor_val_two, Shape.rowMajor_val_one]
    show p.val * 1 + 0 = p.val
    omega)

/-- The sigmoid of a column, flattened, on a block of rows: the tiled program's one logistic operation is the same
    block of entries of the host's 1 / (1 + exp (-x)), both read as vectors. The two spell one function of an
    extended real (its values 0 and 1 at the infinities included). -/
theorem sigmoidCol_rows (row : Fin m → Fin M) (X : FVec Ideal ⟨2, ![M, 1]⟩ .f32) (A : FVec Ideal ⟨2, ![m, 1]⟩ .f32)
    (hA : ∀ a q, A (ix2 a q) = X (ix2 (row a) q))
    (hk : (⟨2, ![m, 1]⟩ : Shape).ShapeCasts ⟨1, ![m]⟩) (hh : (⟨2, ![M, 1]⟩ : Shape).ShapeCasts ⟨1, ![M]⟩)
    (h0 : (⟨0, ![]⟩ : Shape).BroadcastsInDim ⟨2, ![M, 1]⟩ (![] : Fin 0 → Fin 2))
    (y : (⟨1, ![m]⟩ : Shape).Idx) (i : (⟨1, ![M]⟩ : Shape).Idx) (hi : (i 0).val = (row (y 0)).val) :
    shapeCast ⟨1, ![m]⟩ (logistic A) hk y
      = shapeCast ⟨1, ![M]⟩ (Host.divf (broadcastInDim ⟨2, ![M, 1]⟩ ![] h0 (constant (F := Ideal) ⟨0, ![]⟩ .f32 0x3F800000#32))
          (addf (broadcastInDim ⟨2, ![M, 1]⟩ ![] h0 (constant (F := Ideal) ⟨0, ![]⟩ .f32 0x3F800000#32))
            (Host.exp (Host.negf X)))) hh i := by
  obtain ⟨p, rfl⟩ : ∃ p : Fin m, y = ix1 p := ⟨y 0, eq_ix1 y⟩
  obtain rfl : i = ix1 (row p) := by
    rw [eq_ix1 i]; exact congrArg ix1 (Fin.ext hi)
  rw [flattenCol_apply, flattenCol_apply]
  show FloatOps.logistic (A (ix2 p 0))
    = FloatOps.hostDivf (broadcastInDim ⟨2, ![M, 1]⟩ ![] h0 (constant (F := Ideal) ⟨0, ![]⟩ .f32 0x3F800000#32) (ix2 (row p) 0))
        (FloatOps.addf (broadcastInDim ⟨2, ![M, 1]⟩ ![] h0 (constant (F := Ideal) ⟨0, ![]⟩ .f32 0x3F800000#32) (ix2 (row p) 0))
          (FloatOps.hostUnary .exp (FloatOps.hostNegf (X (ix2 (row p) 0)))))
  rw [splat_apply, ofBits_one, hA]
  rfl

end Cert.LibDenseRows

end
-- ==== Proof.BlockRows.lean ====
/-
  The body of the kernel on one block of rows is that block of the reference's result.

  The kernel's body takes a block of 8192 rows of x and the seven weight matrices and biases whole, and runs the
  seven dense layers on the block: six times h ↦ max (h·W + b, 0), then h ↦ sigmoid (h·W₇ + b₇), and flattens the
  resulting column to a vector of 8192 numbers. The reference runs the same seven layers on all 262144 rows. Every
  layer treats rows independently, so if row a of the block is row `row a` of x, then after each layer row a of the
  block's activation is row `row a` of the reference's activation, and at the end entry a of the block's vector is
  entry `row a` of the reference's result. The narrowing of the operands to bf16 is the identity on extended reals,
  a product into the zero accumulator is the plain product, and the one logistic operation is 1 / (1 + exp (-x)).
-/
import proofs.«142283_j73727408603248_2_alg».proof.Proof.Gen.KernelIdeal.Skeleton
import proofs.«142283_j73727408603248_2_alg».proof.Proof.Gen.ReferenceIdeal.Read
import proofs.«142283_j73727408603248_2_alg».proof.Proof.LibDenseRows

noncomputable section

namespace Cert.MlpBlock

open Idealize.ShloMosaic Idealize.ShloMosaic.ValueIdx

/-- Entry y of what the body stores, from a block x0 whose row a is row `row a` of X, is entry i of the reference's
    result at X, when i is the row that y stands for. -/
theorem body_rows (row : Fin 8192 → Fin 262144)
    (X : FVec Ideal ⟨2, ![262144, 256]⟩ .f32)
    (W1 : FVec Ideal ⟨2, ![256, 128]⟩ .f32) (b1 : FVec Ideal ⟨1, ![128]⟩ .f32)
    (W2 : FVec Ideal ⟨2, ![128, 64]⟩ .f32) (b2 : FVec Ideal ⟨1, ![64]⟩ .f32)
    (W3 : FVec Ideal ⟨2, ![64, 32]⟩ .f32) (b3 : FVec Ideal ⟨1, ![32]⟩ .f32)
    (W4 : FVec Ideal ⟨2, ![32, 16]⟩ .f32) (b4 : FVec Ideal ⟨1, ![16]⟩ .f32)
    (W5 : FVec Ideal ⟨2, ![16, 8]⟩ .f32) (b5 : FVec Ideal ⟨1, ![8]⟩ .f32)
    (W6 : FVec Ideal ⟨2, ![8, 4]⟩ .f32) (b6 : FVec Ideal ⟨1, ![4]⟩ .f32)
    (W7 : FVec Ideal ⟨2, ![4, 1]⟩ .f32) (b7 : FVec Ideal ⟨1, ![1]⟩ .f32)
    (x0 : FVec Ideal ⟨2, ![8192, 256]⟩ .f32)
    (hx : ∀ (a : Fin 8192) (c : Fin 256), x0 (ix2 a c) = X (ix2 (row a) c))
    (y : (⟨1, ![8192]⟩ : Shape).Idx) (i : (⟨1, ![262144]⟩ : Shape).Idx) (hi : (i 0).val = (row (y 0)).val) :
    Cert.KernelIdeal.Gen.k0_pay1 (F := Ideal) (Cert.KernelIdeal.Gen.k0_pay2 (F := Ideal) x0 W1 b1 W2 b2 W3 b3 W4) (Cert.KernelIdeal.Gen.k0_pay3 (F := Ideal) b4) W5 b5 W6 b6 W7 b7 y
      = Cert.ReferenceIdeal.Read.val_main_v40 (F := Ideal) X W1 b1 W2 b2 W3 b3 W4 b4 W5 b5 W6 b6 W7 b7 i := by
  refine Eq.trans ?_ (congrFun (Cert.ReferenceIdeal.Read.val_main_v40_eq (F := Ideal) X W1 b1 W2 b2 W3 b3 W4 b4 W5 b5 W6 b6 W7 b7) i)
  unfold Cert.KernelIdeal.Gen.k0_pay1 Cert.KernelIdeal.Gen.k0_pay2 Cert.KernelIdeal.Gen.k0_pay3
  dsimp only
  -- the sigmoid and the last dense layer (no rectifier)
  refine LibDenseRows.sigmoidCol_rows row _ _ ?_ _ _ _ y i hi
  refine LibDenseRows.dense_rows row _ (by rfl) _ (by rfl) _ _ _ _ ?_ _ _ _ _ _
  -- layers six down to one, each a rectifier over a dense layer
  refine LibDenseRows.relu_rows row _ _ ?_ _
  refine LibDenseRows.dense_rows row _ (by rfl) _ (by rfl) _ _ _ _ ?_ _ _ _ _ _
  refine LibDenseRows.relu_rows row _ _ ?_ _
  refine LibDenseRows.dense_rows row _ (by rfl) _ (by rfl) _ _ _ _ ?_ _ _ _ _ _
  refine LibDenseRows.relu_rows row _ _ ?_ _
  refine LibDenseRows.dense_rows row _ (by rfl) _ (by rfl) _ _ _ _ ?_ _ _ _ _ _
  refine LibDenseRows.relu_rows row _ _ ?_ _
  refine LibDenseRows.dense_rows row _ (by rfl) _ (by rfl) _ _ _ _ ?_ _ _ _ _ _
  refine LibDenseRows.relu_rows row _ _ ?_ _
  refine LibDenseRows.dense_rows row _ (by rfl) _ (by rfl) _ _ _ _ ?_ _ _ _ _ _
  refine LibDenseRows.relu_rows row _ _ ?_ _
  refine LibDenseRows.dense_rows row _ (by rfl) _ (by rfl) _ _ _ _ ?_ _ _ _ _ _
  exact hx

end Cert.MlpBlock

end
-- ==== Proof.WholeResult.lean ====
/-
  From blocks to the whole result array.

  The grid has 32 points. Point t stages rows 8192·t … 8192·t + 8191 of x as its block (all 256 columns), every
  weight matrix and bias whole (their block index is 0 on every axis at every point), and writes back entries
  8192·t … 8192·t + 8191 of the result vector. By the lemma on one block of rows, what point t writes back is that
  stretch of the reference's function of the argument arrays. The 32 stretches tile the 262144 entries (entry i lies in
  the stretch of point i / 8192), so after the run the result array is the reference's function of the arguments.
-/
import proofs.«142283_j73727408603248_2_alg».proof.Proof.Gen.KernelIdeal.Value
import proofs.«142283_j73727408603248_2_alg».proof.Proof.Gen.ReferenceIdeal.Read
import proofs.«142283_j73727408603248_2_alg».proof.Proof.BlockRows
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl

/-! ## The index maps, decided over the 32 grid points -/

/-- The block of x at point t is block row t, block column 0. -/
theorem idx0 : ∀ t : Fin cfg0.N, win0_0.index t (0 : Fin 2) = t.val ∧ win0_0.index t (1 : Fin 2) = 0 :=
  (by decide +kernel : ∀ t : Fin grid0.N, _)
/-- The block of the result at point t is block t. -/
theorem idx15 : ∀ t : Fin cfg0.N, win0_15.index t (0 : Fin 1) = t.val :=
  (by decide +kernel : ∀ t : Fin grid0.N, _)
/-! Every weight matrix and bias is one block, at block index 0, at every point. -/
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 1) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 1) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 1) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 1) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 1) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 1) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 1) = 0 :=
  (by decide +kernel : ∀ t : Fin grid0.N, _)

/-! ## The input blocks -/

/-- The row of x that row a of point t's block stands for. -/
def rowOf (t : Fin cfg0.N) (a : Fin 8192) : Fin 262144 :=
  ⟨t.val * 8192 + a.val, by have := t.isLt; have h : cfg0.N = 32 := N_0; have := a.isLt; omega⟩

/-- Row a of point t's block of x is row 8192·t + a of x. -/
theorem iblk0_apply (c : Dev nD) (t : Fin cfg0.N) (a : Fin 8192) (q : Fin 256) :
    (iblk m c 0 t : S8192x256.Idx → Elt Ideal .f32) (ix2 a q) = (V m c main_arg0 : S262144x256.Idx → Elt Ideal .f32) (ix2 (rowOf t a) q) := by
  obtain ⟨e0, e1⟩ := idx0 t
  unfold iblk
  rw [View.read_apply]
  show V m c main_arg0 _ = V m c main_arg0 _
  congr 1
  funext ax
  apply Fin.ext
  match ax with
  | ⟨0, _⟩ => show win0_0.index t (0 : Fin 2) * 8192 + 1 * a.val = t.val * 8192 + a.val; rw [e0]; omega
  | ⟨1, _⟩ => show win0_0.index t (1 : Fin 2) * 256 + 1 * q.val = q.val; rw [e1]; omega

/-! A weight's or a bias's block, at every point, is the whole array. -/
theorem iblk1 (c : Dev nD) (t : Fin cfg0.N) : (iblk m c 1 t : S256x128.Idx → Elt Ideal .f32) = V m c main_arg1 := by
  obtain ⟨e0, e1⟩ := idx1 t
  funext j
  unfold iblk
  rw [View.read_apply]
  show V m c main_arg1 _ = V m c main_arg1 j
  congr 1
  funext a
  apply Fin.ext
  match a with
  | ⟨0, _⟩ => show win0_1.index t (0 : Fin 2) * 256 + 1 * (j 0).val = (j 0).val; rw [e0]; omega
  | ⟨1, _⟩ => show win0_1.index t (1 : Fin 2) * 128 + 1 * (j 1).val = (j 1).val; rw [e1]; omega

theorem iblk2 (c : Dev nD) (t : Fin cfg0.N) : (iblk m c 2 t : S128.Idx → Elt Ideal .f32) = V m c main_arg2 := by
  have e0 := idx2 t
  funext j
  unfold iblk
  rw [View.read_apply]
  show V m c main_arg2 _ = V m c main_arg2 j
  congr 1
  funext a
  apply Fin.ext
  match a with
  | ⟨0, _⟩ => show win0_2.index t (0 : Fin 1) * 128 + 1 * (j 0).val = (j 0).val; rw [e0]; omega

theorem iblk3 (c : Dev nD) (t : Fin cfg0.N) : (iblk m c 3 t : S128x64.Idx → Elt Ideal .f32) = V m c main_arg3 := by
  obtain ⟨e0, e1⟩ := idx3 t
  funext j
  unfold iblk
  rw [View.read_apply]
  show V m c main_arg3 _ = V m c main_arg3 j
  congr 1
  funext a
  apply Fin.ext
  match a with
  | ⟨0, _⟩ => show win0_3.index t (0 : Fin 2) * 128 + 1 * (j 0).val = (j 0).val; rw [e0]; omega
  | ⟨1, _⟩ => show win0_3.index t (1 : Fin 2) * 64 + 1 * (j 1).val = (j 1).val; rw [e1]; omega

theorem iblk4 (c : Dev nD) (t : Fin cfg0.N) : (iblk m c 4 t : S64.Idx → Elt Ideal .f32) = V m c main_arg4 := by
  have e0 := idx4 t
  funext j
  unfold iblk
  rw [View.read_apply]
  show V m c main_arg4 _ = V m c main_arg4 j
  congr 1
  funext a
  apply Fin.ext
  match a with
  | ⟨0, _⟩ => show win0_4.index t (0 : Fin 1) * 64 + 1 * (j 0).val = (j 0).val; rw [e0]; omega

theorem iblk5 (c : Dev nD) (t : Fin cfg0.N) : (iblk m c 5 t : S64x32.Idx → Elt Ideal .f32) = V m c main_arg5 := by
  obtain ⟨e0, e1⟩ := idx5 t
  funext j
  unfold iblk
  rw [View.read_apply]
  show V m c main_arg5 _ = V m c main_arg5 j
  congr 1
  funext a
  apply Fin.ext
  match a with
  | ⟨0, _⟩ => show win0_5.index t (0 : Fin 2) * 64 + 1 * (j 0).val = (j 0).val; rw [e0]; omega
  | ⟨1, _⟩ => show win0_5.index t (1 : Fin 2) * 32 + 1 * (j 1).val = (j 1).val; rw [e1]; omega

theorem iblk6 (c : Dev nD) (t : Fin cfg0.N) : (iblk m c 6 t : S32.Idx → Elt Ideal .f32) = V m c main_arg6 := by
  have e0 := idx6 t
  funext j
  unfold iblk
  rw [View.read_apply]
  show V m c main_arg6 _ = V m c main_arg6 j
  congr 1
  funext a
  apply Fin.ext
  match a with
  | ⟨0, _⟩ => show win0_6.index t (0 : Fin 1) * 32 + 1 * (j 0).val = (j 0).val; rw [e0]; omega

theorem iblk7 (c : Dev nD) (t : Fin cfg0.N) : (iblk m c 7 t : S32x16.Idx → Elt Ideal .f32) = V m c main_arg7 := by
  obtain ⟨e0, e1⟩ := idx7 t
  funext j
  unfold iblk
  rw [View.read_apply]
  show V m c main_arg7 _ = V m c main_arg7 j
  congr 1
  funext a
  apply Fin.ext
  match a with
  | ⟨0, _⟩ => show win0_7.index t (0 : Fin 2) * 32 + 1 * (j 0).val = (j 0).val; rw [e0]; omega
  | ⟨1, _⟩ => show win0_7.index t (1 : Fin 2) * 16 + 1 * (j 1).val = (j 1).val; rw [e1]; omega

theorem iblk8 (c : Dev nD) (t : Fin cfg0.N) : (iblk m c 8 t : S16.Idx → Elt Ideal .f32) = V m c main_arg8 := by
  have e0 := idx8 t
  funext j
  unfold iblk
  rw [View.read_apply]
  show V m c main_arg8 _ = V m c main_arg8 j
  congr 1
  funext a
  apply Fin.ext
  match a with
  | ⟨0, _⟩ => show win0_8.index t (0 : Fin 1) * 16 + 1 * (j 0).val = (j 0).val; rw [e0]; omega

theorem iblk9 (c : Dev nD) (t : Fin cfg0.N) : (iblk m c 9 t : S16x8.Idx → Elt Ideal .f32) = V m c main_arg9 := by
  obtain ⟨e0, e1⟩ := idx9 t
  funext j
  unfold iblk
  rw [View.read_apply]
  show V m c main_arg9 _ = V m c main_arg9 j
  congr 1
  funext a
  apply Fin.ext
  match a with
  | ⟨0, _⟩ => show win0_9.index t (0 : Fin 2) * 16 + 1 * (j 0).val = (j 0).val; rw [e0]; omega
  | ⟨1, _⟩ => show win0_9.index t (1 : Fin 2) * 8 + 1 * (j 1).val = (j 1).val; rw [e1]; omega

theorem iblk10 (c : Dev nD) (t : Fin cfg0.N) : (iblk m c 10 t : S8.Idx → Elt Ideal .f32) = V m c main_arg10 := by
  have e0 := idx10 t
  funext j
  unfold iblk
  rw [View.read_apply]
  show V m c main_arg10 _ = V m c main_arg10 j
  congr 1
  funext a
  apply Fin.ext
  match a with
  | ⟨0, _⟩ => show win0_10.index t (0 : Fin 1) * 8 + 1 * (j 0).val = (j 0).val; rw [e0]; omega

theorem iblk11 (c : Dev nD) (t : Fin cfg0.N) : (iblk m c 11 t : S8x4.Idx → Elt Ideal .f32) = V m c main_arg11 := by
  obtain ⟨e0, e1⟩ := idx11 t
  funext j
  unfold iblk
  rw [View.read_apply]
  show V m c main_arg11 _ = V m c main_arg11 j
  congr 1
  funext a
  apply Fin.ext
  match a with
  | ⟨0, _⟩ => show win0_11.index t (0 : Fin 2) * 8 + 1 * (j 0).val = (j 0).val; rw [e0]; omega
  | ⟨1, _⟩ => show win0_11.index t (1 : Fin 2) * 4 + 1 * (j 1).val = (j 1).val; rw [e1]; omega

theorem iblk12 (c : Dev nD) (t : Fin cfg0.N) : (iblk m c 12 t : S4.Idx → Elt Ideal .f32) = V m c main_arg12 := by
  have e0 := idx12 t
  funext j
  unfold iblk
  rw [View.read_apply]
  show V m c main_arg12 _ = V m c main_arg12 j
  congr 1
  funext a
  apply Fin.ext
  match a with
  | ⟨0, _⟩ => show win0_12.index t (0 : Fin 1) * 4 + 1 * (j 0).val = (j 0).val; rw [e0]; omega

theorem iblk13 (c : Dev nD) (t : Fin cfg0.N) : (iblk m c 13 t : S4x1.Idx → Elt Ideal .f32) = V m c main_arg13 := by
  obtain ⟨e0, e1⟩ := idx13 t
  funext j
  unfold iblk
  rw [View.read_apply]
  show V m c main_arg13 _ = V m c main_arg13 j
  congr 1
  funext a
  apply Fin.ext
  match a with
  | ⟨0, _⟩ => show win0_13.index t (0 : Fin 2) * 4 + 1 * (j 0).val = (j 0).val; rw [e0]; omega
  | ⟨1, _⟩ => show win0_13.index t (1 : Fin 2) * 1 + 1 * (j 1).val = (j 1).val; rw [e1]; omega

theorem iblk14 (c : Dev nD) (t : Fin cfg0.N) : (iblk m c 14 t : S1.Idx → Elt Ideal .f32) = V m c main_arg14 := by
  have e0 := idx14 t
  funext j
  unfold iblk
  rw [View.read_apply]
  show V m c main_arg14 _ = V m c main_arg14 j
  congr 1
  funext a
  apply Fin.ext
  match a with
  | ⟨0, _⟩ => show win0_14.index t (0 : Fin 1) * 1 + 1 * (j 0).val = (j 0).val; rw [e0]; omega

/-! ## The result -/

/-- The reference's seven layers as a function of the kernel's argument arrays. -/
abbrev result (c : Dev nD) : S262144.Idx → Elt Ideal .f32 :=
  Cert.ReferenceIdeal.Read.val_main_v40 (F := Ideal) (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14)

/-- What point t writes back is entries 8192·t … 8192·t + 8191 of `result`. -/
theorem flushed_eq (c : Dev nD) (t : Fin cfg0.N) :
    (dats m 0 c).flushed 15 t = ((cfg0.win 15).blk t).view.read (Elt Ideal) (result m c) := by
  rw [Cert.KernelIdeal.Value.flushed15]
  unfold out0_15
  rw [View.canon_unit_zero hz1]
  simp only [View.ld_unit_zero (S := S8192x256) hz2, View.ld_unit_zero (S := S256x128) hz2, View.ld_unit_zero (S := S128) hz1, View.ld_unit_zero (S := S128x64) hz2, View.ld_unit_zero (S := S64) hz1, View.ld_unit_zero (S := S64x32) hz2, View.ld_unit_zero (S := S32) hz1, View.ld_unit_zero (S := S32x16) hz2, View.ld_unit_zero (S := S16) hz1, View.ld_unit_zero (S := S16x8) hz2, View.ld_unit_zero (S := S8) hz1, View.ld_unit_zero (S := S8x4) hz2, View.ld_unit_zero (S := S4) hz1, View.ld_unit_zero (S := S4x1) hz2, View.ld_unit_zero (S := S1) hz1]
  rw [iblk1 m c t, iblk2 m c t, iblk3 m c t, iblk4 m c t, iblk5 m c t, iblk6 m c t, iblk7 m c t, iblk8 m c t, iblk9 m c t, iblk10 m c t, iblk11 m c t, iblk12 m c t, iblk13 m c t, iblk14 m c t]
  have e15 := idx15 t
  funext j
  show k0_pay1 (k0_pay2 (iblk m c 0 t) (V m c main_arg1) (V m c main_arg2) (V m c main_arg3) (V m c main_arg4) (V m c main_arg5) (V m c main_arg6) (V m c main_arg7)) (k0_pay3 (V m c main_arg8)) (V m c main_arg9) (V m c main_arg10) (V m c main_arg11) (V m c main_arg12) (V m c main_arg13) (V m c main_arg14) j
    = result m c (((cfg0.win 15).blk t).view.emb j)
  refine Cert.MlpBlock.body_rows (rowOf t) (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (iblk m c 0 t) (iblk0_apply m c t) j _ ?_
  show win0_15.index t (0 : Fin 1) * 8192 + 1 * (j 0).val = t.val * 8192 + (j 0).val
  rw [e15]; omega

/-- An entry of the result array is in point t's block iff it lies in the block's range. -/
theorem mem_blk (t : Fin cfg0.N) (i : S262144.Idx) :
    i ∈ ((cfg0.win 15).blk t).view.set ↔ ∀ a : Fin 1, win0_15.index t a * S8192.size a ≤ (i a).val ∧ (i a).val < win0_15.index t a * S8192.size a + S8192.size a := by
  show i ∈ ((View.whole main_v0).slice (win0_15.rect t)).set ↔ _
  rw [View.set_slice_whole, Rect.mem_set_unit]
  exact Iff.rfl

/-- Every entry is written back by some point: entry i by point i / 8192. -/
theorem cover (i : S262144.Idx) : ∃ t : Fin cfg0.N, (cfg0.win 15).flush t = true ∧ i ∈ ((cfg0.win 15).blk t).view.set := by
  have hN : cfg0.N = 32 := N_0
  have hi : (i 0).val < 262144 := (i 0).isLt
  have ht : (i 0).val / 8192 < cfg0.N := by omega
  refine ⟨⟨(i 0).val / 8192, ht⟩, flush0_15 _, ?_⟩
  rw [mem_blk]
  have e15 : win0_15.index ⟨(i 0).val / 8192, ht⟩ (0 : Fin 1) = (i 0).val / 8192 := idx15 ⟨(i 0).val / 8192, ht⟩
  intro a
  match a with
  | ⟨0, _⟩ =>
    show win0_15.index ⟨(i 0).val / 8192, ht⟩ (0 : Fin 1) * 8192 ≤ (i 0).val ∧ (i 0).val < win0_15.index ⟨(i 0).val / 8192, ht⟩ (0 : Fin 1) * 8192 + 8192
    rw [e15]; omega

/-- After the run the result array is `result`. -/
theorem final (c : Dev nD) : (dats m 0 c).arrAt 15 cfg0.N = result m c :=
  (dats m 0 c).arrAt_eq_of_cover 15 (result m c) (fun t _ => flushed_eq m c t) cover

/-- The kernel's run: it terminates with the result array at the reference's function of the arguments, the
    arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩) (Cert.KernelIdeal.Value.run_blocks m ρ)

end Cert.KernelIdeal.Whole

end
-- ==== Proof.lean ====
/-
  A seven-layer perceptron on 262144 rows: the tiled kernel against the plain reference, over the extended reals.

  Both programs send each row x of the input through h₀ = x, hₖ = max (hₖ₋₁·Wₖ + bₖ, 0) for k = 1 … 6, and
  out = sigmoid (h₆·W₇ + b₇), a number per row. The reference does it on all rows at once. The kernel does it on 32
  blocks of 8192 rows, with its operands narrowed to bf16 (the identity on extended reals), its products accumulated
  into a zero block (the plain product, since 0 + s = s), and the sigmoid as one logistic operation (the same
  function 1 / (1 + exp (-z)) of an extended real as the reference's expression). Rows do not interact, so block t of
  the kernel's result is entries 8192·t … 8192·t + 8191 of the reference's, and the 32 blocks tile the result. No
  step uses that the inputs are finite. The idealization rewrote no operation, so that conjunct is trivial; the three
  programs' runs are the generated ones.
-/
import proofs.«142283_j73727408603248_2_alg».proof.Defs
import proofs.«142283_j73727408603248_2_alg».proof.Proof.Gen.Kernel
import proofs.«142283_j73727408603248_2_alg».proof.Proof.Gen.Kernel.Skeleton
import proofs.«142283_j73727408603248_2_alg».proof.Proof.Gen.Kernel.Launch
import proofs.«142283_j73727408603248_2_alg».proof.Proof.Gen.Kernel.Points
import proofs.«142283_j73727408603248_2_alg».proof.Proof.Gen.Kernel.Frame
import proofs.«142283_j73727408603248_2_alg».proof.Proof.Gen.KernelIdeal
import proofs.«142283_j73727408603248_2_alg».proof.Proof.Gen.KernelIdeal.Skeleton
import proofs.«142283_j73727408603248_2_alg».proof.Proof.Gen.KernelIdeal.Launch
import proofs.«142283_j73727408603248_2_alg».proof.Proof.Gen.KernelIdeal.Points
import proofs.«142283_j73727408603248_2_alg».proof.Proof.Gen.KernelIdeal.Frame
import proofs.«142283_j73727408603248_2_alg».proof.Proof.Gen.ReferenceIdeal
import proofs.«142283_j73727408603248_2_alg».proof.Proof.Gen.KernelIdeal.Value
import proofs.«142283_j73727408603248_2_alg».proof.Proof.Gen.ReferenceIdeal.Run
import proofs.«142283_j73727408603248_2_alg».proof.Proof.Gen.ReferenceIdeal.Read
import proofs.«142283_j73727408603248_2_alg».proof.Proof.Gen.Pre_finite_inputs
import proofs.«142283_j73727408603248_2_alg».proof.Proof.WholeResult
import Idealize.ShloMosaic.Adequacy
import Idealize.ShloMosaic.Init

noncomputable section

namespace Cert.Proof

open Idealize.ShloMosaic Idealize.SL.Sem

/-- The kernel as printed runs, and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run with its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories that agree on the fifteen arguments, both programs end with the result array at the reference's
    seven layers of those arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14⟩ := hagree c
  rw [Cert.ReferenceIdeal.Read.val_main_v40_eq, a0, a1, a2, a3, a4, a5, a6, a7, a8, a9, a10, a11, a12, a13, a14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
